-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1x128 : Shape := ⟨2, ![1, 128]⟩
abbrev S5000x128 : Shape := ⟨2, ![5000, 128]⟩
abbrev S1650000x128 : Shape := ⟨2, ![1650000, 128]⟩
abbrev S1x64 : Shape := ⟨2, ![1, 64]⟩
abbrev S50000x64 : Shape := ⟨2, ![50000, 64]⟩
abbrev S5000x64 : Shape := ⟨2, ![5000, 64]⟩
abbrev S1x1 : Shape := ⟨2, ![1, 1]⟩
abbrev S50000x1 : Shape := ⟨2, ![50000, 1]⟩
abbrev S5000x1 : Shape := ⟨2, ![5000, 1]⟩

abbrev nBuf : Space → Nat
  | .hbm => 98
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S50000, .i32⟩
  | .hbm, ⟨15, _⟩ => ⟨S1650000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S50000x128, .f32⟩
  | .hbm, ⟨54, _⟩ => ⟨S_, .i32⟩
  | .hbm, ⟨55, _⟩ => ⟨S1650000, .i32⟩
  | .hbm, ⟨56, _⟩ => ⟨S1650000, .i1⟩
  | .hbm, ⟨57, _⟩ => ⟨S_, .i32⟩
  | .hbm, ⟨58, _⟩ => ⟨S1650000, .i32⟩
  | .hbm, ⟨59, _⟩ => ⟨S1650000, .i32⟩
  | .hbm, ⟨60, _⟩ => ⟨S1650000, .i32⟩
  | .hbm, ⟨61, _⟩ => ⟨S1650000x1, .i32⟩
  | .hbm, ⟨62, _⟩ => ⟨S1650000x128, .f32⟩
  | .hbm, ⟨63, _⟩ => ⟨S1650000x1, .f32⟩
  | .hbm, ⟨64, _⟩ => ⟨S1650000x128, .f32⟩
  | .hbm, ⟨65, _⟩ => ⟨S1650000x128, .f32⟩
  | .hbm, ⟨66, _⟩ => ⟨S_, .f32⟩
  | .hbm, ⟨67, _⟩ => ⟨S50000x128, .f32⟩
  | .hbm, ⟨68, _⟩ => ⟨S1650000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S_, .f32⟩
  | .hbm, ⟨73, _⟩ => ⟨S128, .f32⟩
  | .hbm, ⟨74, _⟩ => ⟨S1x128, .f32⟩
  | .hbm, ⟨75, _⟩ => ⟨S50000x128, .f32⟩
  | .hbm, ⟨76, _⟩ => ⟨S_, .i32⟩
  | .hbm, ⟨77, _⟩ => ⟨S1650000, .i32⟩
  | .hbm, ⟨78, _⟩ => ⟨S1650000, .i1⟩
  | .hbm, ⟨79, _⟩ => ⟨S_, .i32⟩
  | .hbm, ⟨80, _⟩ => ⟨S1650000, .i32⟩
  | .hbm, ⟨81, _⟩ => ⟨S1650000, .i32⟩
  | .hbm, ⟨82, _⟩ => ⟨S1650000, .i32⟩
  | .hbm, ⟨83, _⟩ => ⟨S1650000x1, .i32⟩
  | .hbm, ⟨84, _⟩ => ⟨S1650000x128, .f32⟩
  | .hbm, ⟨85, _⟩ => ⟨S1650000x1, .f32⟩
  | .hbm, ⟨86, _⟩ => ⟨S1650000x128, .f32⟩
  | .hbm, ⟨87, _⟩ => ⟨S1650000x128, .f32⟩
  | .hbm, ⟨88, _⟩ => ⟨S_, .f32⟩
  | .hbm, ⟨89, _⟩ => ⟨S50000x128, .f32⟩
  | .hbm, ⟨90, _⟩ => ⟨S1650000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S1x64, .f32⟩
  | .hbm, ⟨95, _⟩ => ⟨S50000x64, .f32⟩
  | .hbm, ⟨96, _⟩ => ⟨S1x1, .f32⟩
  | .hbm, ⟨97, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x1, .f32⟩
  | .local _ .vmem, ⟨31, _⟩ => ⟨S1x1, .f32⟩
  | .local _ .vmem, ⟨32, _⟩ => ⟨S5000x1, .f32⟩
  | .local _ .vmem, ⟨33, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S5000x128_S5000x128 : S5000x128.ShapeCasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S1_S1x1 : S1.ShapeCasts S1x1
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x1.size a ≤ S64x1.size a
  hwx5_1 : ∀ i : grid5.Coords, EltTy.bits .f32 = 32 ∨ (Rect.block (s := S64x1) S64x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S50000x1.size a
  hwx5_3 : ∀ i : grid5.Coords, EltTy.bits .f32 = 32 ∨ (Rect.block (s := S50000x1) S5000x1.size (cc5_transform_3 i) (hinb5_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v67) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S5000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S50000x128, .f32⟩
  | 15 => ⟨S50000, .i32⟩
  | 16 => ⟨S1650000, .i32⟩
  | 17 => ⟨S1650000, .i32⟩
  | 18 => ⟨S_, .f32⟩
  | 19 => ⟨S1650000, .f32⟩
  | 20 => ⟨S_, .f32⟩
  | 21 => ⟨S50000, .f32⟩
  | 22 => ⟨S1650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S_, .i32⟩
  | 52 => ⟨S1650000, .i32⟩
  | 53 => ⟨S1650000, .i1⟩
  | 54 => ⟨S_, .i32⟩
  | 55 => ⟨S1650000, .i32⟩
  | 56 => ⟨S1650000, .i32⟩
  | 57 => ⟨S1650000, .i32⟩
  | 58 => ⟨S1650000x1, .i32⟩
  | 59 => ⟨S1650000x128, .f32⟩
  | 60 => ⟨S1650000x1, .f32⟩
  | 61 => ⟨S1650000x128, .f32⟩
  | 62 => ⟨S1650000x128, .f32⟩
  | 63 => ⟨S_, .f32⟩
  | 64 => ⟨S50000x128, .f32⟩
  | 65 => ⟨S1650000x1, .i32⟩
  | 66 => ⟨S50000x128, .f32⟩
  | 67 => ⟨S1x128, .f32⟩
  | 68 => ⟨S50000x128, .f32⟩
  | 69 => ⟨S50000x128, .f32⟩
  | 70 => ⟨S50000x128, .f32⟩
  | 71 => ⟨S50000x128, .f32⟩
  | 72 => ⟨S50000, .i32⟩
  | 73 => ⟨S1650000, .i32⟩
  | 74 => ⟨S1650000, .i32⟩
  | 75 => ⟨S_, .f32⟩
  | 76 => ⟨S1650000, .f32⟩
  | 77 => ⟨S_, .f32⟩
  | 78 => ⟨S50000, .f32⟩
  | 79 => ⟨S1650000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S1650000, .i32⟩
  | 91 => ⟨S1650000, .i1⟩
  | 92 => ⟨S_, .i32⟩
  | 93 => ⟨S1650000, .i32⟩
  | 94 => ⟨S1650000, .i32⟩
  | 95 => ⟨S1650000, .i32⟩
  | 96 => ⟨S1650000x1, .i32⟩
  | 97 => ⟨S1650000, .f32⟩
  | 98 => ⟨S_, .i32⟩
  | 99 => ⟨S1650000, .i32⟩
  | 100 => ⟨S1650000, .i1⟩
  | 101 => ⟨S_, .i32⟩
  | 102 => ⟨S1650000, .i32⟩
  | 103 => ⟨S1650000, .i32⟩
  | 104 => ⟨S1650000, .i32⟩
  | 105 => ⟨S1650000x1, .i32⟩
  | 106 => ⟨S1650000, .f32⟩
  | 107 => ⟨S1650000, .f32⟩
  | 108 => ⟨S_, .i32⟩
  | 109 => ⟨S1650000, .i32⟩
  | 110 => ⟨S1650000, .i1⟩
  | 111 => ⟨S_, .i32⟩
  | 112 => ⟨S1650000, .i32⟩
  | 113 => ⟨S1650000, .i32⟩
  | 114 => ⟨S1650000, .i32⟩
  | 115 => ⟨S1650000x1, .i32⟩
  | 116 => ⟨S1650000x128, .f32⟩
  | 117 => ⟨S1650000x1, .f32⟩
  | 118 => ⟨S1650000x128, .f32⟩
  | 119 => ⟨S1650000x128, .f32⟩
  | 120 => ⟨S_, .f32⟩
  | 121 => ⟨S50000x128, .f32⟩
  | 122 => ⟨S1650000x1, .i32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S50000x64, .f32⟩
  | 5 => ⟨S50000x1, .f32⟩
  | 6 => ⟨S1x1, .f32⟩
  | 7 => ⟨S50000x1, .f32⟩
  | 8 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call1_v0 : Ref sig .tc := ⟨.hbm, 86, rfl⟩
abbrev main_call1_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel's whole run with its result named.

  The program is six kernel regions among stretches of host operations.  The contents of every buffer at each
  boundary are a fold from the launch memory: a host stretch applies its operations, a region replaces its
  arrays by what its write-backs leave.  The run ends with every unscoped buffer at the last fold, so the result
  buffer holds the last fold's value there, and each argument its launch contents.
-/
import proofs.«111161_j7438883356948_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last fold's value and
    the arguments as launched. -/
theorem run : θ_run defs (onTc (τ := τ) (main (F := F))) ⟨m, fun _ => 0, ρ⟩ (fun r => ∀ c : Dev nD,
      r.2.mem ((c.tc : Thread nD τ).loc main_v69) = W14 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v69 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Whole

end
-- ==== Proof.FoldKeep.lean ====
/-
  Which buffers each segment of the program leaves alone.

  A host stretch changes only the buffers its operations write; a kernel region changes only its output array.  So a
  buffer that none of the later segments writes is read, at any later boundary, as it was at an earlier one.  The
  lists below name what each stretch writes; the cumulative lists name everything written between region 0's entry
  and a later boundary, so that "this buffer is still what it was" is one membership check.
-/
import proofs.«111161_j7438883356948_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ## What each host stretch writes -/

abbrev wr0 : List (Ref sig .tc) := [main_v0, main_v1, main_v2, main_v3, main_v4, main_v5, main_v6, main_cst, main_v7, main_cst_0, main_v8, main_v9, main_v10, main_cst_1, main_v11, main_v12, main_v13, main_cst_2]
abbrev wr0a : List (Ref sig .tc) := [main_call0_v0, main_call0_v1, main_v14]
abbrev wr0b : List (Ref sig .tc) := [main_c, main_v15, main_v16, main_c_3, main_v17, main_v18, main_v19, main_v20, main_v21, main_c_4, main_v22, main_v23, main_c_5, main_v24, main_v25, main_v26, main_v27, main_v28, main_v29, main_cst_6, main_v30, main_v31]
abbrev wr1 : List (Ref sig .tc) := [main_c_7, main_v33, main_v34, main_c_8, main_v35, main_v36, main_v37, main_v38, main_v39, main_v40, main_v41, main_v42, main_cst_9, main_v43, main_v44, main_v45, main_v46]
abbrev wr2 : List (Ref sig .tc) := [main_cst_10, main_v48, main_v49]
abbrev wr3 : List (Ref sig .tc) := [main_c_11, main_v51, main_v52, main_c_12, main_v53, main_v54, main_v55, main_v56, main_v57, main_v58, main_v59, main_v60, main_cst_13, main_v61, main_v62, main_v63, main_v64]
abbrev wr4 : List (Ref sig .tc) := [main_v66]
abbrev wr5 : List (Ref sig .tc) := [main_v68]

theorem writes0 : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes0a : (hostOps0_1 : List (HloOp τ sig (Elt F))).Forall fun op => op.writes ⊆ (wr0a.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes0b : (hostOps0_2 : List (HloOp τ sig (Elt F))).Forall fun op => op.writes ⊆ (wr0b.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes1 : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes2 : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes3 : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes4 : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem writes5 : (hostOps5 : List (HloOp τ sig (Elt F))).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-! ## One segment back -/

theorem host1 (c : Dev nD) (r : Ref sig .tc) (h : r ∉ wr0) : W1 m ρ c (Proc.devRef .tc r) = W0 m ρ c (Proc.devRef .tc r) :=
  StableHlo.after_of_writes_sub hostOps0 _ writes0 h
theorem host2 (c : Dev nD) (r : Ref sig .tc) (h : r ∉ wr0a) : W2 m ρ c (Proc.devRef .tc r) = W1 m ρ c (Proc.devRef .tc r) :=
  StableHlo.after_of_writes_sub hostOps0_1 _ writes0a h
theorem host3 (c : Dev nD) (r : Ref sig .tc) (h : r ∉ wr0b) : W3 m ρ c (Proc.devRef .tc r) = W2 m ρ c (Proc.devRef .tc r) :=
  StableHlo.after_of_writes_sub hostOps0_2 _ writes0b h
theorem host5 (c : Dev nD) (r : Ref sig .tc) (h : r ∉ wr1) : W5 m ρ c (Proc.devRef .tc r) = W4 m ρ c (Proc.devRef .tc r) :=
  StableHlo.after_of_writes_sub hostOps1 _ writes1 h
theorem host7 (c : Dev nD) (r : Ref sig .tc) (h : r ∉ wr2) : W7 m ρ c (Proc.devRef .tc r) = W6 m ρ c (Proc.devRef .tc r) :=
  StableHlo.after_of_writes_sub hostOps2 _ writes2 h
theorem host9 (c : Dev nD) (r : Ref sig .tc) (h : r ∉ wr3) : W9 m ρ c (Proc.devRef .tc r) = W8 m ρ c (Proc.devRef .tc r) :=
  StableHlo.after_of_writes_sub hostOps3 _ writes3 h
theorem host11 (c : Dev nD) (r : Ref sig .tc) (h : r ∉ wr4) : W11 m ρ c (Proc.devRef .tc r) = W10 m ρ c (Proc.devRef .tc r) :=
  StableHlo.after_of_writes_sub hostOps4 _ writes4 h
theorem host13 (c : Dev nD) (r : Ref sig .tc) (h : r ∉ wr5) : W13 m ρ c (Proc.devRef .tc r) = W12 m ρ c (Proc.devRef .tc r) :=
  StableHlo.after_of_writes_sub hostOps5 _ writes5 h

/-- Region 0 changes only its output array: every other buffer leaves the region as it entered (an input array is
    read through its window and never written back). -/
theorem keep4 (c : Dev nD) (r : Ref sig .tc) (h : r ≠ main_v32) :
    W4 m ρ c (Proc.devRef .tc r) = W3 m ρ c (Proc.devRef .tc r) := by
  by_cases h0 : r = main_arg0
  · subst h0; exact (W4_arr m ρ c 0).trans (((dat0 (V3 m ρ) c).arrAt_in 0 rfl _).trans (A_eq0 (V3 m ρ) c 0))
  by_cases h1 : r = main_arg2
  · subst h1; exact (W4_arr m ρ c 1).trans (((dat0 (V3 m ρ) c).arrAt_in 1 rfl _).trans (A_eq0 (V3 m ρ) c 1))
  by_cases h2 : r = main_v31
  · subst h2; exact (W4_arr m ρ c 2).trans (((dat0 (V3 m ρ) c).arrAt_in 2 rfl _).trans (A_eq0 (V3 m ρ) c 2))
  refine W4_of_ne m ρ c r fun w => ?_
  fin_cases w
  exacts [Ne.symm h0, Ne.symm h1, Ne.symm h2, Ne.symm h]

/-- Region 1 changes only its output array: every other buffer leaves the region as it entered (an input array is
    read through its window and never written back). -/
theorem keep6 (c : Dev nD) (r : Ref sig .tc) (h : r ≠ main_v47) :
    W6 m ρ c (Proc.devRef .tc r) = W5 m ρ c (Proc.devRef .tc r) := by
  by_cases h0 : r = main_v45
  · subst h0; exact (W6_arr m ρ c 0).trans (((dat1 (V5 m ρ) c).arrAt_in 0 rfl _).trans (A_eq1 (V5 m ρ) c 0))
  by_cases h1 : r = main_v46
  · subst h1; exact (W6_arr m ρ c 1).trans (((dat1 (V5 m ρ) c).arrAt_in 1 rfl _).trans (A_eq1 (V5 m ρ) c 1))
  refine W6_of_ne m ρ c r fun w => ?_
  fin_cases w
  exacts [Ne.symm h0, Ne.symm h1, Ne.symm h]

/-- Region 2 changes only its output array: every other buffer leaves the region as it entered (an input array is
    read through its window and never written back). -/
theorem keep8 (c : Dev nD) (r : Ref sig .tc) (h : r ≠ main_v50) :
    W8 m ρ c (Proc.devRef .tc r) = W7 m ρ c (Proc.devRef .tc r) := by
  by_cases h0 : r = main_v47
  · subst h0; exact (W8_arr m ρ c 0).trans (((dat2 (V7 m ρ) c).arrAt_in 0 rfl _).trans (A_eq2 (V7 m ρ) c 0))
  by_cases h1 : r = main_arg4
  · subst h1; exact (W8_arr m ρ c 1).trans (((dat2 (V7 m ρ) c).arrAt_in 1 rfl _).trans (A_eq2 (V7 m ρ) c 1))
  by_cases h2 : r = main_v49
  · subst h2; exact (W8_arr m ρ c 2).trans (((dat2 (V7 m ρ) c).arrAt_in 2 rfl _).trans (A_eq2 (V7 m ρ) c 2))
  refine W8_of_ne m ρ c r fun w => ?_
  fin_cases w
  exacts [Ne.symm h0, Ne.symm h1, Ne.symm h2, Ne.symm h]

/-- Region 3 changes only its output array: every other buffer leaves the region as it entered (an input array is
    read through its window and never written back). -/
theorem keep10 (c : Dev nD) (r : Ref sig .tc) (h : r ≠ main_v65) :
    W10 m ρ c (Proc.devRef .tc r) = W9 m ρ c (Proc.devRef .tc r) := by
  by_cases h0 : r = main_v63
  · subst h0; exact (W10_arr m ρ c 0).trans (((dat3 (V9 m ρ) c).arrAt_in 0 rfl _).trans (A_eq3 (V9 m ρ) c 0))
  by_cases h1 : r = main_v64
  · subst h1; exact (W10_arr m ρ c 1).trans (((dat3 (V9 m ρ) c).arrAt_in 1 rfl _).trans (A_eq3 (V9 m ρ) c 1))
  refine W10_of_ne m ρ c r fun w => ?_
  fin_cases w
  exacts [Ne.symm h0, Ne.symm h1, Ne.symm h]

/-- Region 4 changes only its output array: every other buffer leaves the region as it entered (an input array is
    read through its window and never written back). -/
theorem keep12 (c : Dev nD) (r : Ref sig .tc) (h : r ≠ main_v67) :
    W12 m ρ c (Proc.devRef .tc r) = W11 m ρ c (Proc.devRef .tc r) := by
  by_cases h0 : r = main_v65
  · subst h0; exact (W12_arr m ρ c 0).trans (((dat4 (V11 m ρ) c).arrAt_in 0 rfl _).trans (A_eq4 (V11 m ρ) c 0))
  by_cases h1 : r = main_arg6
  · subst h1; exact (W12_arr m ρ c 1).trans (((dat4 (V11 m ρ) c).arrAt_in 1 rfl _).trans (A_eq4 (V11 m ρ) c 1))
  by_cases h2 : r = main_v66
  · subst h2; exact (W12_arr m ρ c 2).trans (((dat4 (V11 m ρ) c).arrAt_in 2 rfl _).trans (A_eq4 (V11 m ρ) c 2))
  refine W12_of_ne m ρ c r fun w => ?_
  fin_cases w
  exacts [Ne.symm h0, Ne.symm h1, Ne.symm h2, Ne.symm h]

/-- Region 5 changes only its output array: every other buffer leaves the region as it entered (an input array is
    read through its window and never written back). -/
theorem keep14 (c : Dev nD) (r : Ref sig .tc) (h : r ≠ main_v69) :
    W14 m ρ c (Proc.devRef .tc r) = W13 m ρ c (Proc.devRef .tc r) := by
  by_cases h0 : r = main_v67
  · subst h0; exact (W14_arr m ρ c 0).trans (((dat5 (V13 m ρ) c).arrAt_in 0 rfl _).trans (A_eq5 (V13 m ρ) c 0))
  by_cases h1 : r = main_arg8
  · subst h1; exact (W14_arr m ρ c 1).trans (((dat5 (V13 m ρ) c).arrAt_in 1 rfl _).trans (A_eq5 (V13 m ρ) c 1))
  by_cases h2 : r = main_v68
  · subst h2; exact (W14_arr m ρ c 2).trans (((dat5 (V13 m ρ) c).arrAt_in 2 rfl _).trans (A_eq5 (V13 m ρ) c 2))
  refine W14_of_ne m ρ c r fun w => ?_
  fin_cases w
  exacts [Ne.symm h0, Ne.symm h1, Ne.symm h2, Ne.symm h]

/-! ## Back to region 0's entry, and to the launch -/

/-- Everything written between region 0's entry and each later boundary. -/
abbrev upTo4 : List (Ref sig .tc) := [main_v32]
abbrev upTo5 : List (Ref sig .tc) := wr1 ++ upTo4
abbrev upTo6 : List (Ref sig .tc) := main_v47 :: upTo5
abbrev upTo7 : List (Ref sig .tc) := wr2 ++ upTo6
abbrev upTo8 : List (Ref sig .tc) := main_v50 :: upTo7
abbrev upTo9 : List (Ref sig .tc) := wr3 ++ upTo8
abbrev upTo10 : List (Ref sig .tc) := main_v65 :: upTo9
abbrev upTo11 : List (Ref sig .tc) := wr4 ++ upTo10
abbrev upTo12 : List (Ref sig .tc) := main_v67 :: upTo11
abbrev upTo13 : List (Ref sig .tc) := wr5 ++ upTo12

variable (c : Dev nD) (r : Ref sig .tc)

theorem down4 (h : r ∉ upTo4) : W4 m ρ c (Proc.devRef .tc r) = W3 m ρ c (Proc.devRef .tc r) :=
  keep4 m ρ c r (List.ne_of_not_mem_cons h)
theorem down5 (h : r ∉ upTo5) : W5 m ρ c (Proc.devRef .tc r) = W3 m ρ c (Proc.devRef .tc r) :=
  (host5 m ρ c r fun hh => h (List.mem_append_left _ hh)).trans (down4 m ρ c r fun hh => h (List.mem_append_right _ hh))
theorem down6 (h : r ∉ upTo6) : W6 m ρ c (Proc.devRef .tc r) = W3 m ρ c (Proc.devRef .tc r) :=
  (keep6 m ρ c r (List.ne_of_not_mem_cons h)).trans (down5 m ρ c r fun hh => h (List.mem_cons_of_mem _ hh))
theorem down7 (h : r ∉ upTo7) : W7 m ρ c (Proc.devRef .tc r) = W3 m ρ c (Proc.devRef .tc r) :=
  (host7 m ρ c r fun hh => h (List.mem_append_left _ hh)).trans (down6 m ρ c r fun hh => h (List.mem_append_right _ hh))
theorem down8 (h : r ∉ upTo8) : W8 m ρ c (Proc.devRef .tc r) = W3 m ρ c (Proc.devRef .tc r) :=
  (keep8 m ρ c r (List.ne_of_not_mem_cons h)).trans (down7 m ρ c r fun hh => h (List.mem_cons_of_mem _ hh))
theorem down9 (h : r ∉ upTo9) : W9 m ρ c (Proc.devRef .tc r) = W3 m ρ c (Proc.devRef .tc r) :=
  (host9 m ρ c r fun hh => h (List.mem_append_left _ hh)).trans (down8 m ρ c r fun hh => h (List.mem_append_right _ hh))
theorem down10 (h : r ∉ upTo10) : W10 m ρ c (Proc.devRef .tc r) = W3 m ρ c (Proc.devRef .tc r) :=
  (keep10 m ρ c r (List.ne_of_not_mem_cons h)).trans (down9 m ρ c r fun hh => h (List.mem_cons_of_mem _ hh))
theorem down11 (h : r ∉ upTo11) : W11 m ρ c (Proc.devRef .tc r) = W3 m ρ c (Proc.devRef .tc r) :=
  (host11 m ρ c r fun hh => h (List.mem_append_left _ hh)).trans (down10 m ρ c r fun hh => h (List.mem_append_right _ hh))
theorem down12 (h : r ∉ upTo12) : W12 m ρ c (Proc.devRef .tc r) = W3 m ρ c (Proc.devRef .tc r) :=
  (keep12 m ρ c r (List.ne_of_not_mem_cons h)).trans (down11 m ρ c r fun hh => h (List.mem_cons_of_mem _ hh))
theorem down13 (h : r ∉ upTo13) : W13 m ρ c (Proc.devRef .tc r) = W3 m ρ c (Proc.devRef .tc r) :=
  (host13 m ρ c r fun hh => h (List.mem_append_left _ hh)).trans (down12 m ρ c r fun hh => h (List.mem_append_right _ hh))

/-- A buffer no operation before region 0 writes holds, at region 0's entry, its launch contents. -/
theorem launch3 (h0 : r ∉ wr0) (h0a : r ∉ wr0a) (h0b : r ∉ wr0b) :
    W3 m ρ c (Proc.devRef .tc r) = m ((c : Thread nD τ).loc r) :=
  (host3 m ρ c r h0b).trans ((host2 m ρ c r h0a).trans (host1 m ρ c r h0))

end Cert.KernelIdeal.Fold

end
-- ==== Proof.Dense.lean ====
/-
  The dense layers of the graph network, as whole-array functions over the extended reals.

  Every dense step of the network is one of three shapes: a matrix product (entry (r, c) is the sum over k of
  x[r, k] · w[k, c]), the addition of one row vector to every row, and tanh applied entry by entry.  The kernels
  compute them on blocks of 5000 rows with the bias held as a one-row matrix; the reference computes them on whole
  arrays with the bias held as a vector.  Stated index by index, as here, both are the same functions.
-/
import Idealize.ShloMosaic.PureOps.Ideal
import Idealize.ShloMosaic.PureOps.Ideal.Laws
import Idealize.ShloMosaic.Lib.ValueIdx

noncomputable section

namespace Cert.Dense

open Idealize.ShloMosaic Idealize.ShloMosaic.ValueIdx

/-- The matrix product of an R × K and a K × C array: entry (r, c) is the sum over k of x[r, k] · w[k, c]. -/
def mm {R K C : Nat} (x : FVec Ideal ⟨2, ![R, K]⟩ .f32) (w : FVec Ideal ⟨2, ![K, C]⟩ .f32) :
    FVec Ideal ⟨2, ![R, C]⟩ .f32 :=
  fun i => ∑ k : Fin K, x (ix2 (i 0) k) * w (ix2 k (i 1))

/-- A row vector added to every row of an R × C array. -/
def addRow {R C : Nat} (y : FVec Ideal ⟨2, ![R, C]⟩ .f32) (b : FVec Ideal ⟨1, ![C]⟩ .f32) :
    FVec Ideal ⟨2, ![R, C]⟩ .f32 :=
  fun i => y i + b (ix1 (i 1))

/-- tanh of every entry. -/
def tanhAll {s : Shape} (y : FVec Ideal s .f32) : FVec Ideal s .f32 := fun i => Ideal.tanh (y i)

/-- The one-row matrix that holds a vector: entry (0, c) is b[c]. -/
def asRow {C : Nat} (b : FVec Ideal ⟨1, ![C]⟩ .f32) : FVec Ideal ⟨2, ![1, C]⟩ .f32 := fun i => b (ix1 (i 1))

/-- The product with the first row of a one-row matrix added to every row: what one linear kernel computes. -/
def affine {R K C : Nat} (x : FVec Ideal ⟨2, ![R, K]⟩ .f32) (w : FVec Ideal ⟨2, ![K, C]⟩ .f32)
    (b : FVec Ideal ⟨2, ![1, C]⟩ .f32) : FVec Ideal ⟨2, ![R, C]⟩ .f32 :=
  fun i => mm x w i + b (ix2 0 (i 1))

/-- The first row of a one-row matrix added to every row, then tanh: what one bias kernel computes. -/
def biasTanh {R C : Nat} (y : FVec Ideal ⟨2, ![R, C]⟩ .f32) (b : FVec Ideal ⟨2, ![1, C]⟩ .f32) :
    FVec Ideal ⟨2, ![R, C]⟩ .f32 :=
  fun i => Ideal.tanh (y i + b (ix2 0 (i 1)))

/-- With the bias a vector held as one row, the linear kernel's function is the product plus that vector on every row. -/
theorem affine_asRow {R K C : Nat} (x : FVec Ideal ⟨2, ![R, K]⟩ .f32) (w : FVec Ideal ⟨2, ![K, C]⟩ .f32)
    (b : FVec Ideal ⟨1, ![C]⟩ .f32) : affine x w (asRow b) = addRow (mm x w) b := rfl

/-- With a zero row as bias the linear kernel's function is the bare product: a + 0 = a on the extended reals. -/
theorem affine_zero {R K C : Nat} (x : FVec Ideal ⟨2, ![R, K]⟩ .f32) (w : FVec Ideal ⟨2, ![K, C]⟩ .f32)
    (b : FVec Ideal ⟨2, ![1, C]⟩ .f32) (hb : ∀ i, b i = 0) : affine x w b = mm x w := by
  funext i
  show mm x w i + b (ix2 0 (i 1)) = mm x w i
  rw [hb, add_zero]

/-- With the bias a vector held as one row, the bias kernel's function is tanh of the sum with that vector on every row. -/
theorem biasTanh_asRow {R C : Nat} (y : FVec Ideal ⟨2, ![R, C]⟩ .f32) (b : FVec Ideal ⟨1, ![C]⟩ .f32) :
    biasTanh y (asRow b) = tanhAll (addRow y b) := rfl

end Cert.Dense

end
-- ==== Proof.RefStages.lean ====
/-
  The reference as one function of its arguments.

  The reference network is two rounds of graph convolution, a hidden layer and a head.  One round takes node features
  x (50000 × 128), multiplies by a weight matrix, gathers the product's rows at the edges' sources (the edge list
  with one self-loop per node appended), scales each gathered row by the edge's normalisation d(src)^(-1/2) ·
  d(dst)^(-1/2), sums the rows into the edges' targets, adds a bias vector to every row and applies tanh.  The gather,
  the scaling and the scatter-add depend only on the edge list and are the same host operations in the kernel's
  program: they are carried here as ONE function `agg` of the features and the edge list, never opened.  The dense
  steps are the products, row additions and tanh of the specification.
-/
import proofs.«111161_j7438883356948_1_alg».proof.Proof.RefRun
import proofs.«111161_j7438883356948_1_alg».proof.Proof.RefRead
import proofs.«111161_j7438883356948_1_alg».proof.Proof.Dense

noncomputable section

namespace Cert.RefStages

open Cert.ReferenceIdeal Cert.ReferenceIdeal.Gen Cert.ReferenceIdeal.ReadP Cert.Dense
open Idealize.ShloMosaic Idealize.ShloMosaic.ValueIdx

variable {F : FTy → Type} [FloatOps F]

/-- One round's message passing: the rows of `h` gathered at the edges' sources, each scaled by its edge's
    normalisation, summed into the edges' targets.  The index and normalisation arrays are the reference's own
    stages of the edge list. -/
def agg (h : (⟨S50000x128, .f32⟩ : BufTy).Contents (Elt F)) (e : (⟨S2x1600000, .i32⟩ : BufTy).Contents (Elt F)) : (⟨S50000x128, .f32⟩ : BufTy).Contents (Elt F) :=
  Host.scatterAdd scatter_S50000x128_S1650000x1_S1650000x128_1_0_0_1 (val_main_v41 (F := F)) (val_main_v42 (F := F) e)
    (mulf (Host.gather gather_S50000x128_S1650000x1_S1650000x128_1_0_n_n_0_1_1128 h (val_main_v36 (F := F) e)) (val_main_v39 (F := F) e))

/-- One round of graph convolution: product with the weights, message passing, bias, tanh. -/
def layer (x : (⟨S50000x128, .f32⟩ : BufTy).Contents (Elt Ideal)) (e : (⟨S2x1600000, .i32⟩ : BufTy).Contents (Elt Ideal)) (w : (⟨S128x128, .f32⟩ : BufTy).Contents (Elt Ideal)) (b : (⟨S128, .f32⟩ : BufTy).Contents (Elt Ideal)) :
    (⟨S50000x128, .f32⟩ : BufTy).Contents (Elt Ideal) :=
  tanhAll (addRow (R := 50000) (C := 128) (agg (F := Ideal) (mm (R := 50000) (K := 128) (C := 128) x w) e) b)

/-- The whole network: two rounds, the hidden layer with tanh, the head. -/
def net (a0 : (⟨S50000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S128, .f32⟩ : BufTy).Contents (Elt Ideal)) (a6 : (⟨S128x64, .f32⟩ : BufTy).Contents (Elt Ideal)) (a7 : (⟨S64, .f32⟩ : BufTy).Contents (Elt Ideal))
    (a8 : (⟨S64x1, .f32⟩ : BufTy).Contents (Elt Ideal)) (a9 : (⟨S1, .f32⟩ : BufTy).Contents (Elt Ideal)) : (⟨S50000x1, .f32⟩ : BufTy).Contents (Elt Ideal) :=
  addRow (R := 50000) (C := 1)
    (mm (R := 50000) (K := 64) (C := 1)
      (tanhAll (addRow (R := 50000) (C := 64) (mm (R := 50000) (K := 128) (C := 64) (layer (layer a0 a1 a2 a3) a1 a4 a5) a6) a7)) a8) a9

/-! ## The stages, one at a time -/

section
variable (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal))
  (x8 : (⟨S64x1, .f32⟩ : BufTy).Contents (Elt Ideal)) (x9 : (⟨S1, .f32⟩ : BufTy).Contents (Elt Ideal))

/-- The first product. -/
theorem v4_eq : val_main_v4 (F := Ideal) x0 x2 = mm (R := 50000) (K := 128) (C := 128) x0 x2 := by
  funext i
  refine (val_main_v4_apply x0 x2 i).trans ?_
  refine Finset.sum_congr rfl fun k _ => ?_
  have el : lidx_main_v4 i k = ix2 (i 0) k := funext fun a => by match a with | ⟨0, _⟩ => rfl | ⟨1, _⟩ => rfl
  have er : ridx_main_v4 i k = ix2 k (i 1) := funext fun a => by match a with | ⟨0, _⟩ => rfl | ⟨1, _⟩ => rfl
  rw [el, er]
  rfl

/-- The first round's message passing is `agg` of the first product. -/
theorem v43_eq : val_main_v43 (F := Ideal) x0 x1 x2 = agg (F := Ideal) (val_main_v4 (F := Ideal) x0 x2) x1 := rfl

/-- Bias and tanh after the first round. -/
theorem v47_eq : val_main_v47 (F := Ideal) x0 x1 x2 x3 = tanhAll (addRow (R := 50000) (C := 128) (val_main_v43 (F := Ideal) x0 x1 x2) x3) := by
  funext i
  rw [val_main_v47_apply, val_main_v46_apply, val_main_v45_apply, val_main_v44_apply,
    show idx_main_v44 (idx_main_v45 i) = ix1 (i 1) from funext fun a => by match a with | ⟨0, _⟩ => rfl,
    Ideal.hostUnary_tanh_def, Ideal.addf_def]
  rfl

/-- The second product. -/
theorem v48_eq : val_main_v48 (F := Ideal) x0 x1 x2 x3 x4 = mm (R := 50000) (K := 128) (C := 128) (val_main_v47 (F := Ideal) x0 x1 x2 x3) x4 := by
  funext i
  refine (val_main_v48_apply x0 x1 x2 x3 x4 i).trans ?_
  refine Finset.sum_congr rfl fun k _ => ?_
  have el : lidx_main_v48 i k = ix2 (i 0) k := funext fun a => by match a with | ⟨0, _⟩ => rfl | ⟨1, _⟩ => rfl
  have er : ridx_main_v48 i k = ix2 k (i 1) := funext fun a => by match a with | ⟨0, _⟩ => rfl | ⟨1, _⟩ => rfl
  rw [el, er]
  rfl

/-- The second round's message passing is the same `agg`: its index and normalisation arrays are computed again, by
    the same operations, from the same edge list. -/
theorem v87_eq : val_main_v87 (F := Ideal) x0 x1 x2 x3 x4 = agg (F := Ideal) (val_main_v48 (F := Ideal) x0 x1 x2 x3 x4) x1 := rfl

/-- Bias and tanh after the second round. -/
theorem v91_eq : val_main_v91 (F := Ideal) x0 x1 x2 x3 x4 x5 = tanhAll (addRow (R := 50000) (C := 128) (val_main_v87 (F := Ideal) x0 x1 x2 x3 x4) x5) := by
  funext i
  rw [val_main_v91_apply, val_main_v90_apply, val_main_v89_apply, val_main_v88_apply,
    show idx_main_v88 (idx_main_v89 i) = ix1 (i 1) from funext fun a => by match a with | ⟨0, _⟩ => rfl,
    Ideal.hostUnary_tanh_def, Ideal.addf_def]
  rfl

/-- The hidden layer's product. -/
theorem v92_eq : val_main_v92 (F := Ideal) x0 x1 x2 x3 x4 x5 x6 = mm (R := 50000) (K := 128) (C := 64) (val_main_v91 (F := Ideal) x0 x1 x2 x3 x4 x5) x6 := by
  funext i
  refine (val_main_v92_apply x0 x1 x2 x3 x4 x5 x6 i).trans ?_
  refine Finset.sum_congr rfl fun k _ => ?_
  have el : lidx_main_v92 i k = ix2 (i 0) k := funext fun a => by match a with | ⟨0, _⟩ => rfl | ⟨1, _⟩ => rfl
  have er : ridx_main_v92 i k = ix2 k (i 1) := funext fun a => by match a with | ⟨0, _⟩ => rfl | ⟨1, _⟩ => rfl
  rw [el, er]
  rfl

/-- The hidden layer's bias and tanh. -/
theorem v96_eq : val_main_v96 (F := Ideal) x0 x1 x2 x3 x4 x5 x6 x7 = tanhAll (addRow (R := 50000) (C := 64) (val_main_v92 (F := Ideal) x0 x1 x2 x3 x4 x5 x6) x7) := by
  funext i
  rw [val_main_v96_apply, val_main_v95_apply, val_main_v94_apply, val_main_v93_apply,
    show idx_main_v93 (idx_main_v94 i) = ix1 (i 1) from funext fun a => by match a with | ⟨0, _⟩ => rfl,
    Ideal.hostUnary_tanh_def, Ideal.addf_def]
  rfl

/-- The head's product. -/
theorem v97_eq : val_main_v97 (F := Ideal) x0 x1 x2 x3 x4 x5 x6 x7 x8 = mm (R := 50000) (K := 64) (C := 1) (val_main_v96 (F := Ideal) x0 x1 x2 x3 x4 x5 x6 x7) x8 := by
  funext i
  refine (val_main_v97_apply x0 x1 x2 x3 x4 x5 x6 x7 x8 i).trans ?_
  refine Finset.sum_congr rfl fun k _ => ?_
  have el : lidx_main_v97 i k = ix2 (i 0) k := funext fun a => by match a with | ⟨0, _⟩ => rfl | ⟨1, _⟩ => rfl
  have er : ridx_main_v97 i k = ix2 k (i 1) := funext fun a => by match a with | ⟨0, _⟩ => rfl | ⟨1, _⟩ => rfl
  rw [el, er]
  rfl

/-- The head's bias. -/
theorem v100_eq : val_main_v100 (F := Ideal) x0 x1 x2 x3 x4 x5 x6 x7 x8 x9 = addRow (R := 50000) (C := 1) (val_main_v97 (F := Ideal) x0 x1 x2 x3 x4 x5 x6 x7 x8) x9 := by
  funext i
  have h1 : (i 1).val < 1 := (i 1).isLt
  rw [val_main_v100_apply, val_main_v99_apply, val_main_v98_apply,
    show idx_main_v98 (idx_main_v99 i) = ix1 (i 1) from funext fun a => by
      match a with
      | ⟨0, _⟩ => exact Fin.ext (show 0 = (i 1).val by omega),
    Ideal.addf_def]
  rfl

/-- The reference's result is the network of its arguments. -/
theorem ref_eq : val_main_v100 (F := Ideal) x0 x1 x2 x3 x4 x5 x6 x7 x8 x9 = net x0 x1 x2 x3 x4 x5 x6 x7 x8 x9 := by
  rw [v100_eq, v97_eq, v96_eq, v92_eq, v91_eq, v87_eq, v48_eq, v47_eq, v43_eq, v4_eq]
  rfl

end

end Cert.RefStages

end
-- ==== Proof.FoldGlue.lean ====
/-
  The host stretches between the regions, read as values.

  Before region 0 the program builds, from the edge list alone, the source and target index arrays (the edges with one
  self-loop per node appended) and the per-edge normalisation.  These are the same operations, on the same edge list,
  as the reference's, so each array IS the reference's stage of the edge list.  After regions 0 and 2 the program
  gathers the region's output rows at the sources, scales them and scatter-adds them into the targets: the
  reference's `agg` of the region's output and the edge list.  Nothing of these chains is opened: the two sides are
  the same terms.
-/
import proofs.«111161_j7438883356948_1_alg».proof.Proof.Gen.KernelIdeal.Frame
import proofs.«111161_j7438883356948_1_alg».proof.Proof.FoldKeep
import proofs.«111161_j7438883356948_1_alg».proof.Proof.RefStages
import Idealize.ShloMosaic.Lib.StableHlo.Run

set_option maxRecDepth 65536
set_option maxHeartbeats 4000000

noncomputable section

namespace Cert.KernelIdeal.Fold

open Cert.KernelIdeal Cert.KernelIdeal.Gen Cert.RefStages
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge list as launched. -/
abbrev edges : (⟨S2x1600000, .i32⟩ : BufTy).Contents (Elt Ideal) := m ((c : Thread nD τ).loc main_arg1)

/-- The source indices (edges, then one self-loop per node) at region 0's entry. -/
theorem src3 : W3 m ρ c (Proc.devRef .tc main_v5) = Cert.ReferenceIdeal.ReadP.val_main_v6 (F := Ideal) (edges m c) := by
  rw [host3 m ρ c main_v5 (by decide), host2 m ρ c main_v5 (by decide)]
  show StableHlo.after hostOps0 (W0 m ρ c) (Proc.devRef .tc main_v5) = _
  after_results
  rfl

/-- The target indices at region 0's entry. -/
theorem dst3 : W3 m ρ c (Proc.devRef .tc main_v6) = Cert.ReferenceIdeal.ReadP.val_main_v7 (F := Ideal) (edges m c) := by
  rw [host3 m ρ c main_v6 (by decide), host2 m ρ c main_v6 (by decide)]
  show StableHlo.after hostOps0 (W0 m ρ c) (Proc.devRef .tc main_v6) = _
  after_results
  rfl

/-- Whether a node's in-degree (self-loop included) is positive, after the first stretch. -/
theorem pos1 : W1 m ρ c (Proc.devRef .tc main_v12) = Cert.ReferenceIdeal.ReadP.val_main_v13 (F := Ideal) (edges m c) := by
  show StableHlo.after hostOps0 (W0 m ρ c) (Proc.devRef .tc main_v12) = _
  after_results_simp
  rfl

/-- The in-degrees' inverse square roots, after the first stretch. -/
theorem rsq1 : W1 m ρ c (Proc.devRef .tc main_v13) = Cert.ReferenceIdeal.ReadP.val_main_v14 (F := Ideal) (edges m c) := by
  show StableHlo.after hostOps0 (W0 m ρ c) (Proc.devRef .tc main_v13) = _
  after_results_simp
  rfl

/-- The zero that replaces the inverse square root where the degree is not positive. -/
theorem zero1 : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl

/-- The clamped inverse square roots (zero where the degree is not positive), after the call of `where`. -/
theorem dinv2 : W2 m ρ c (Proc.devRef .tc main_v14) = Cert.ReferenceIdeal.ReadP.val_main_v15 (F := Ideal) (edges m c) := by
  show StableHlo.after hostOps0_1 (W1 m ρ c) (Proc.devRef .tc main_v14) = _
  generalize hX : W1 m ρ c = X
  after_results_simp
  show select (X (Proc.devRef .tc main_v12) : IVec S50000 1) (X (Proc.devRef .tc main_v13) : FVec Ideal S50000 .f32)
      (broadcastInDim S50000 ![] bcast_S_S50000 (id (X (Proc.devRef .tc main_cst_2) : FVec Ideal S_ .f32))) = _
  subst hX
  rw [pos1 m ρ c, rsq1 m ρ c, zero1 m ρ c]
  rfl

/-- The per-edge normalisation at region 0's entry. -/
theorem norm3 : W3 m ρ c (Proc.devRef .tc main_v29) = Cert.ReferenceIdeal.ReadP.val_main_v30 (F := Ideal) (edges m c) := by
  show StableHlo.after hostOps0_2 (W2 m ρ c) (Proc.devRef .tc main_v29) = _
  generalize hX : W2 m ρ c = X
  after_results_simp
  subst hX
  rw [dinv2 m ρ c, show W2 m ρ c (Proc.devRef .tc main_v5) = W3 m ρ c (Proc.devRef .tc main_v5) from (host3 m ρ c main_v5 (by decide)).symm,
    show W2 m ρ c (Proc.devRef .tc main_v6) = W3 m ρ c (Proc.devRef .tc main_v6) from (host3 m ρ c main_v6 (by decide)).symm,
    src3 m ρ c, dst3 m ρ c]
  rfl

/-- The first round's message passing: the stretch after region 0 leaves, in region 1's operand, `agg` of region 0's
    output and the edge list. -/
theorem agg5 : W5 m ρ c (Proc.devRef .tc main_v45) = agg (F := Ideal) (W4 m ρ c (Proc.devRef .tc main_v32)) (edges m c) := by
  show StableHlo.after hostOps1 (W4 m ρ c) (Proc.devRef .tc main_v45) = _
  generalize hX : W4 m ρ c = X
  after_results_simp
  subst hX
  rw [down4 m ρ c main_v5 (by decide), down4 m ρ c main_v6 (by decide), down4 m ρ c main_v29 (by decide),
    src3 m ρ c, dst3 m ρ c, norm3 m ρ c]
  rfl

/-- The second round's message passing: the stretch after region 2 leaves, in region 3's operand, the same `agg` of
    region 2's output and the edge list. -/
theorem agg9 : W9 m ρ c (Proc.devRef .tc main_v63) = agg (F := Ideal) (W8 m ρ c (Proc.devRef .tc main_v50)) (edges m c) := by
  show StableHlo.after hostOps3 (W8 m ρ c) (Proc.devRef .tc main_v63) = _
  generalize hX : W8 m ρ c = X
  after_results_simp
  subst hX
  rw [down8 m ρ c main_v5 (by decide), down8 m ρ c main_v6 (by decide), down8 m ρ c main_v29 (by decide),
    src3 m ρ c, dst3 m ρ c, norm3 m ρ c]
  rfl

end Cert.KernelIdeal.Fold

end
-- ==== Proof.Region0.lean ====
/-
  Region 0: the first linear kernel, on blocks of 5000 rows.

  At grid point t the kernel loads rows 5000·t … 5000·t + 4999 of the left operand, the whole right operand and the
  whole one-row bias, and stores, for row p and column q of the block, the sum over k of left[p, k] · right[k, q]
  plus bias[0, q] (the casts to bf16 are the identity on the extended reals, the accumulator starts at zero).  The ten
  blocks tile the 50000 rows, so the output array ends as the product plus the bias row on every row.
-/
import proofs.«111161_j7438883356948_1_alg».proof.Proof.Gen.KernelIdeal.Frame
import proofs.«111161_j7438883356948_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Dense
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The left operand's row coordinate in the block product is the output's row. -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's column coordinate in the block product is the output's column. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block matmul into a zero accumulator, read at an entry: the sum over the one contracted axis. -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The body's stored value at row p, column q of the block. -/
theorem pay_at (x0 : Vec Ideal S5000x128 .f32) (x1 : Vec Ideal S128x128 .f32) (x2 : Vec Ideal S1x128 .f32) (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  show matmul (F := Ideal) dot_S5000x128_S128x128_S5000x128_1_0_0_1_n_n none (truncf (F := Ideal) .bf16 x0 bitsLt_bf16_f32) (truncf (F := Ideal) .bf16 x1 bitsLt_bf16_f32) (constant (F := Ideal) S5000x128 .f32 0x00000000#32) (ix2 p q)
      + broadcastTo S5000x128 (shapeCast S1x128 x2 shapeCasts_S1x128_S1x128) broadcasts_S1x128_S5000x128 (ix2 p q) = _
  rw [matmul_at, shapeCast_self, broadcastTo_1b_ab_apply]
  rfl

/-- The same against whole arrays: if the loaded blocks are the arrays X, Wt, B read at row E 0, column E 1 (the block's
    place in the arrays), the stored value is the whole-array function at E. -/
theorem pay_eq (X : FVec Ideal S50000x128 .f32) (Wt : FVec Ideal S128x128 .f32) (B : FVec Ideal S1x128 .f32)
    (x0 : Vec Ideal S5000x128 .f32) (x1 : Vec Ideal S128x128 .f32) (x2 : Vec Ideal S1x128 .f32) (E : S50000x128.Idx) (p : Fin 5000) (q : Fin 128)
    (hx : ∀ k : Fin 128, x0 (ix2 p k) = X (ix2 (E 0) k)) (hw : ∀ k : Fin 128, x1 (ix2 k q) = Wt (ix2 k (E 1)))
    (hb : x2 (ix2 (0 : Fin 1) q) = B (ix2 (0 : Fin 1) (E 1))) :
    k0_pay1 (F := Ideal) x0 x1 x2 (ix2 p q) = (affine (R := 50000) (K := 128) (C := 128) X Wt B) E := by
  rw [pay_at]
  show (∑ k : Fin 128, x0 (ix2 p k) * x1 (ix2 k q)) + x2 (ix2 (0 : Fin 1) q)
      = (∑ k : Fin 128, X (ix2 (E 0) k) * Wt (ix2 k (E 1))) + B (ix2 (0 : Fin 1) (E 1))
  rw [hb]
  exact congrArg (· + _) (Finset.sum_congr rfl fun k _ => by rw [hx k, hw k])

/-- The windows' block indices over the grid: the left operand and the output move with the point; the right operand
    and the bias are the same whole block at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block of rows is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point t writes back is block t of the whole-array function, of the arrays as the region finds them. -/
theorem flushed_eq (c : Dev nD) (t : Fin cfg0.N) :
    (dat0 V c).flushed 3 t = ((cfg0.win 3).blk t).view.read (Elt Ideal)
      (affine (R := 50000) (K := 128) (C := 128) (V c main_arg0) (V c main_arg2) (V c main_v31)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  refine pay_eq (V c main_arg0) (V c main_arg2) (V c main_v31) (iblk0 V c 0 t) (iblk0 V c 1 t) (iblk0 V c 2 t)
    (((cfg0.win 3).blk t).view.emb (ix2 p q)) p q (fun k => ?_) (fun k => ?_) ?_
  · show V c main_arg0 (((cfg0.win 0).blk t).view.emb (ix2 p k)) = V c main_arg0 (ix2 ((((cfg0.win 3).blk t).view.emb (ix2 p q)) 0) k)
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · show V c main_arg2 (((cfg0.win 1).blk t).view.emb (ix2 k q)) = V c main_arg2 (ix2 k ((((cfg0.win 3).blk t).view.emb (ix2 p q)) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · show V c main_v31 (((cfg0.win 2).blk t).view.emb (ix2 (0 : Fin 1) q)) = V c main_v31 (ix2 (0 : Fin 1) ((((cfg0.win 3).blk t).view.emb (ix2 p q)) 1))
    refine congrArg (V c main_v31) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- The ten blocks tile the rows: row r is in the block of point r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region, of the arrays as the region finds them. -/
theorem final (c : Dev nD) :
    (dat0 V c).arrAt 3 cfg0.N = (affine (R := 50000) (K := 128) (C := 128) (V c main_arg0) (V c main_arg2) (V c main_v31)) :=
  (dat0 V c).arrAt_eq_of_cover 3 _ (fun t _ => flushed_eq V c t) cover

end Cert.KernelIdeal.Region0

end
-- ==== Proof.Region1.lean ====
/-
  Region 1: a bias kernel, on blocks of 5000 rows.

  At grid point t the kernel loads rows 5000·t … 5000·t + 4999 of its 50000 × 128 operand and the whole one-row
  bias, and stores, for row p and column q of the block, tanh of operand[p, q] + bias[0, q].  The ten blocks tile the
  50000 rows, so the output array ends as tanh of the operand plus the bias row, entry by entry.
-/
import proofs.«111161_j7438883356948_1_alg».proof.Proof.Gen.KernelIdeal.Frame
import proofs.«111161_j7438883356948_1_alg».proof.Proof.Dense
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Cert.Dense
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q of the block. -/
theorem pay_at (x0 : Vec Ideal S5000x128 .f32) (x1 : Vec Ideal S1x128 .f32) (p : Fin 5000) (q : Fin 128) :
    k1_pay1 (F := Ideal) x0 x1 (ix2 p q) = Ideal.tanh (x0 (ix2 p q) + x1 (ix2 (0 : Fin 1) q)) := by
  unfold k1_pay1
  show Ideal.tanh (shapeCast S5000x128 x0 shapeCasts_S5000x128_S5000x128 (ix2 p q)
      + broadcastTo S5000x128 (shapeCast S1x128 x1 shapeCasts_S1x128_S1x128) broadcasts_S1x128_S5000x128 (ix2 p q)) = _
  rw [shapeCast_self, shapeCast_self, broadcastTo_1b_ab_apply]

/-- The same against whole arrays: if the loaded blocks are the arrays X, B read at E (the entry's place in the arrays), the
    stored value is the whole-array function at E. -/
theorem pay_eq (X : FVec Ideal S50000x128 .f32) (B : FVec Ideal S1x128 .f32)
    (x0 : Vec Ideal S5000x128 .f32) (x1 : Vec Ideal S1x128 .f32) (E : S50000x128.Idx) (p : Fin 5000) (q : Fin 128)
    (hx : x0 (ix2 p q) = X E) (hb : x1 (ix2 (0 : Fin 1) q) = B (ix2 (0 : Fin 1) (E 1))) :
    k1_pay1 (F := Ideal) x0 x1 (ix2 p q) = biasTanh (R := 50000) (C := 128) X B E := by
  rw [pay_at, hx, hb]
  rfl

/-- The windows' block indices over the grid: the operand and the output move with the point; the bias is the same
    whole block at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block of rows is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point t writes back is block t of tanh of the operand plus the bias row, of the arrays as the region finds them. -/
theorem flushed_eq (c : Dev nD) (t : Fin cfg1.N) :
    (dat1 V c).flushed 2 t = ((cfg1.win 2).blk t).view.read (Elt Ideal)
      (biasTanh (R := 50000) (C := 128) (V c main_v45) (V c main_v46)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine pay_eq (V c main_v45) (V c main_v46) (iblk1 V c 0 t) (iblk1 V c 1 t) (((cfg1.win 2).blk t).view.emb (ix2 p q)) p q ?_ ?_
  · show V c main_v45 (((cfg1.win 0).blk t).view.emb (ix2 p q)) = V c main_v45 (((cfg1.win 2).blk t).view.emb (ix2 p q))
    refine congrArg (V c main_v45) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  · show V c main_v46 (((cfg1.win 1).blk t).view.emb (ix2 (0 : Fin 1) q)) = V c main_v46 (ix2 (0 : Fin 1) ((((cfg1.win 2).blk t).view.emb (ix2 p q)) 1))
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The ten blocks tile the rows: row r is in the block of point r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: tanh of the operand plus the bias row, of the arrays as the region finds them. -/
theorem final (c : Dev nD) :
    (dat1 V c).arrAt 2 cfg1.N = biasTanh (R := 50000) (C := 128) (V c main_v45) (V c main_v46) :=
  (dat1 V c).arrAt_eq_of_cover 2 _ (fun t _ => flushed_eq V c t) cover

end Cert.KernelIdeal.Region1

end
-- ==== Proof.Region2.lean ====
/-
  Region 2: the second linear kernel, on blocks of 5000 rows.

  The same kernel as region 0 on the first round's output: at grid point t it loads rows 5000·t … 5000·t + 4999 of the
  left operand, the whole right operand and the whole one-row bias, and stores, for row p and column q of the block, the
  sum over k of left[p, k] · right[k, q] plus bias[0, q].  The ten blocks tile the 50000 rows.
-/
import proofs.«111161_j7438883356948_1_alg».proof.Proof.Gen.KernelIdeal.Frame
import proofs.«111161_j7438883356948_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Dense
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The left operand's row coordinate in the block product is the output's row. -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's column coordinate in the block product is the output's column. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block matmul into a zero accumulator, read at an entry: the sum over the one contracted axis. -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The body's stored value at row p, column q of the block. -/
theorem pay_at (x0 : Vec Ideal S5000x128 .f32) (x1 : Vec Ideal S128x128 .f32) (x2 : Vec Ideal S1x128 .f32) (p : Fin 5000) (q : Fin 128) :
    k2_pay1 (F := Ideal) x0 x1 x2 (ix2 p q) = (∑ k : Fin 128, x0 (ix2 p k) * x1 (ix2 k q)) + x2 (ix2 (0 : Fin 1) q) := by
  unfold k2_pay1
  show matmul (F := Ideal) dot_S5000x128_S128x128_S5000x128_1_0_0_1_n_n none (truncf (F := Ideal) .bf16 (shapeCast S5000x128 x0 shapeCasts_S5000x128_S5000x128) bitsLt_bf16_f32) (truncf (F := Ideal) .bf16 x1 bitsLt_bf16_f32) (constant (F := Ideal) S5000x128 .f32 0x00000000#32) (ix2 p q)
      + broadcastTo S5000x128 (shapeCast S1x128 x2 shapeCasts_S1x128_S1x128) broadcasts_S1x128_S5000x128 (ix2 p q) = _
  rw [matmul_at, shapeCast_self, broadcastTo_1b_ab_apply, shapeCast_self]
  rfl

/-- The same against whole arrays: if the loaded blocks are the arrays X, Wt, B read at row E 0, column E 1 (the block's
    place in the arrays), the stored value is the whole-array function at E. -/
theorem pay_eq (X : FVec Ideal S50000x128 .f32) (Wt : FVec Ideal S128x128 .f32) (B : FVec Ideal S1x128 .f32)
    (x0 : Vec Ideal S5000x128 .f32) (x1 : Vec Ideal S128x128 .f32) (x2 : Vec Ideal S1x128 .f32) (E : S50000x128.Idx) (p : Fin 5000) (q : Fin 128)
    (hx : ∀ k : Fin 128, x0 (ix2 p k) = X (ix2 (E 0) k)) (hw : ∀ k : Fin 128, x1 (ix2 k q) = Wt (ix2 k (E 1)))
    (hb : x2 (ix2 (0 : Fin 1) q) = B (ix2 (0 : Fin 1) (E 1))) :
    k2_pay1 (F := Ideal) x0 x1 x2 (ix2 p q) = (affine (R := 50000) (K := 128) (C := 128) X Wt B) E := by
  rw [pay_at]
  show (∑ k : Fin 128, x0 (ix2 p k) * x1 (ix2 k q)) + x2 (ix2 (0 : Fin 1) q)
      = (∑ k : Fin 128, X (ix2 (E 0) k) * Wt (ix2 k (E 1))) + B (ix2 (0 : Fin 1) (E 1))
  rw [hb]
  exact congrArg (· + _) (Finset.sum_congr rfl fun k _ => by rw [hx k, hw k])

/-- The windows' block indices over the grid: the left operand and the output move with the point; the right operand
    and the bias are the same whole block at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block of rows is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What point t writes back is block t of the whole-array function, of the arrays as the region finds them. -/
theorem flushed_eq (c : Dev nD) (t : Fin cfg2.N) :
    (dat2 V c).flushed 3 t = ((cfg2.win 3).blk t).view.read (Elt Ideal)
      (affine (R := 50000) (K := 128) (C := 128) (V c main_v47) (V c main_arg4) (V c main_v49)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  refine pay_eq (V c main_v47) (V c main_arg4) (V c main_v49) (iblk2 V c 0 t) (iblk2 V c 1 t) (iblk2 V c 2 t)
    (((cfg2.win 3).blk t).view.emb (ix2 p q)) p q (fun k => ?_) (fun k => ?_) ?_
  · show V c main_v47 (((cfg2.win 0).blk t).view.emb (ix2 p k)) = V c main_v47 (ix2 ((((cfg2.win 3).blk t).view.emb (ix2 p q)) 0) k)
    refine congrArg (V c main_v47) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  · show V c main_arg4 (((cfg2.win 1).blk t).view.emb (ix2 k q)) = V c main_arg4 (ix2 k ((((cfg2.win 3).blk t).view.emb (ix2 p q)) 1))
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  · show V c main_v49 (((cfg2.win 2).blk t).view.emb (ix2 (0 : Fin 1) q)) = V c main_v49 (ix2 (0 : Fin 1) ((((cfg2.win 3).blk t).view.emb (ix2 p q)) 1))
    refine congrArg (V c main_v49) (funext fun a => Fin.ext ?_)
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega

/-- An index of the output array is in point t's block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v50).slice (win2_3.rect t)).set ↔ _
  rw [View.set_slice_whole, Rect.mem_set_unit]
  exact Iff.rfl

/-- The ten blocks tile the rows: row r is in the block of point r / 5000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the region, of the arrays as the region finds them. -/
theorem final (c : Dev nD) :
    (dat2 V c).arrAt 3 cfg2.N = (affine (R := 50000) (K := 128) (C := 128) (V c main_v47) (V c main_arg4) (V c main_v49)) :=
  (dat2 V c).arrAt_eq_of_cover 3 _ (fun t _ => flushed_eq V c t) cover

end Cert.KernelIdeal.Region2

end
-- ==== Proof.Region3.lean ====
/-
  Region 3: a bias kernel, on blocks of 5000 rows.

  At grid point t the kernel loads rows 5000·t … 5000·t + 4999 of its 50000 × 128 operand and the whole one-row
  bias, and stores, for row p and column q of the block, tanh of operand[p, q] + bias[0, q].  The ten blocks tile the
  50000 rows, so the output array ends as tanh of the operand plus the bias row, entry by entry.
-/
import proofs.«111161_j7438883356948_1_alg».proof.Proof.Gen.KernelIdeal.Frame
import proofs.«111161_j7438883356948_1_alg».proof.Proof.Dense
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen Cert.Dense
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q of the block. -/
theorem pay_at (x0 : Vec Ideal S5000x128 .f32) (x1 : Vec Ideal S1x128 .f32) (p : Fin 5000) (q : Fin 128) :
    k3_pay1 (F := Ideal) x0 x1 (ix2 p q) = Ideal.tanh (x0 (ix2 p q) + x1 (ix2 (0 : Fin 1) q)) := by
  unfold k3_pay1
  show Ideal.tanh (shapeCast S5000x128 x0 shapeCasts_S5000x128_S5000x128 (ix2 p q)
      + broadcastTo S5000x128 (shapeCast S1x128 x1 shapeCasts_S1x128_S1x128) broadcasts_S1x128_S5000x128 (ix2 p q)) = _
  rw [shapeCast_self, shapeCast_self, broadcastTo_1b_ab_apply]

/-- The same against whole arrays: if the loaded blocks are the arrays X, B read at E (the entry's place in the arrays), the
    stored value is the whole-array function at E. -/
theorem pay_eq (X : FVec Ideal S50000x128 .f32) (B : FVec Ideal S1x128 .f32)
    (x0 : Vec Ideal S5000x128 .f32) (x1 : Vec Ideal S1x128 .f32) (E : S50000x128.Idx) (p : Fin 5000) (q : Fin 128)
    (hx : x0 (ix2 p q) = X E) (hb : x1 (ix2 (0 : Fin 1) q) = B (ix2 (0 : Fin 1) (E 1))) :
    k3_pay1 (F := Ideal) x0 x1 (ix2 p q) = biasTanh (R := 50000) (C := 128) X B E := by
  rw [pay_at, hx, hb]
  rfl

/-- The windows' block indices over the grid: the operand and the output move with the point; the bias is the same
    whole block at every point. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block of rows is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point t writes back is block t of tanh of the operand plus the bias row, of the arrays as the region finds them. -/
theorem flushed_eq (c : Dev nD) (t : Fin cfg3.N) :
    (dat3 V c).flushed 2 t = ((cfg3.win 2).blk t).view.read (Elt Ideal)
      (biasTanh (R := 50000) (C := 128) (V c main_v63) (V c main_v64)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine pay_eq (V c main_v63) (V c main_v64) (iblk3 V c 0 t) (iblk3 V c 1 t) (((cfg3.win 2).blk t).view.emb (ix2 p q)) p q ?_ ?_
  · show V c main_v63 (((cfg3.win 0).blk t).view.emb (ix2 p q)) = V c main_v63 (((cfg3.win 2).blk t).view.emb (ix2 p q))
    refine congrArg (V c main_v63) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  · show V c main_v64 (((cfg3.win 1).blk t).view.emb (ix2 (0 : Fin 1) q)) = V c main_v64 (ix2 (0 : Fin 1) ((((cfg3.win 2).blk t).view.emb (ix2 p q)) 1))
    refine congrArg (V c main_v64) (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega

/-- An index of the output array is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v65).slice (win3_2.rect t)).set ↔ _
  rw [View.set_slice_whole, Rect.mem_set_unit]
  exact Iff.rfl

/-- The ten blocks tile the rows: row r is in the block of point r / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: tanh of the operand plus the bias row, of the arrays as the region finds them. -/
theorem final (c : Dev nD) :
    (dat3 V c).arrAt 2 cfg3.N = biasTanh (R := 50000) (C := 128) (V c main_v63) (V c main_v64) :=
  (dat3 V c).arrAt_eq_of_cover 2 _ (fun t _ => flushed_eq V c t) cover

end Cert.KernelIdeal.Region3

end
-- ==== Proof.Region4.lean ====
/-
  Region 4: the hidden layer's linear kernel with tanh, on blocks of 5000 rows.

  At grid point t the kernel loads rows 5000·t … 5000·t + 4999 of the 50000 × 128 left operand, the whole 128 × 64 right
  operand and the whole one-row bias, and stores, for row p and column q of the block, tanh of the sum over k of
  left[p, k] · right[k, q] plus bias[0, q].  The ten blocks tile the 50000 rows.
-/
import proofs.«111161_j7438883356948_1_alg».proof.Proof.Gen.KernelIdeal.Frame
import proofs.«111161_j7438883356948_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen Cert.Dense
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The left operand's row coordinate in the block product is the output's row. -/
theorem lhs_row (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The right operand's column coordinate in the block product is the output's column. -/
theorem rhs_col (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block matmul into a zero accumulator, read at an entry: the sum over the one contracted axis. -/
theorem matmul_at (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact lhs_row _ _
      | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (dot_S5000x128_S128x64_S5000x64_1_0_0_1_n_n.rhsIdx_val_of_single rfl _ _).trans hk
      | ⟨1, _⟩ => exact rhs_col _ _)
  rw [el, er]

/-- The body's stored value at row p, column q of the block. -/
theorem pay_at (x0 : Vec Ideal S5000x128 .f32) (x1 : Vec Ideal S128x64 .f32) (x2 : Vec Ideal S1x64 .f32) (p : Fin 5000) (q : Fin 64) :
    k4_pay1 (F := Ideal) x0 x1 x2 (ix2 p q) = Ideal.tanh ((∑ k : Fin 128, x0 (ix2 p k) * x1 (ix2 k q)) + x2 (ix2 (0 : Fin 1) q)) := by
  unfold k4_pay1
  show Ideal.tanh (matmul (F := Ideal) dot_S5000x128_S128x64_S5000x64_1_0_0_1_n_n none (truncf (F := Ideal) .bf16 (shapeCast S5000x128 x0 shapeCasts_S5000x128_S5000x128) bitsLt_bf16_f32) (truncf (F := Ideal) .bf16 x1 bitsLt_bf16_f32) (constant (F := Ideal) S5000x64 .f32 0x00000000#32) (ix2 p q)
      + broadcastTo S5000x64 (shapeCast S1x64 x2 shapeCasts_S1x64_S1x64) broadcasts_S1x64_S5000x64 (ix2 p q)) = _
  rw [matmul_at, shapeCast_self, broadcastTo_1b_ab_apply, shapeCast_self]
  rfl

/-- The same against whole arrays: if the loaded blocks are the arrays X, Wt, B read at row E 0, column E 1 (the block's
    place in the arrays), the stored value is the whole-array function at E. -/
theorem pay_eq (X : FVec Ideal S50000x128 .f32) (Wt : FVec Ideal S128x64 .f32) (B : FVec Ideal S1x64 .f32)
    (x0 : Vec Ideal S5000x128 .f32) (x1 : Vec Ideal S128x64 .f32) (x2 : Vec Ideal S1x64 .f32) (E : S50000x64.Idx) (p : Fin 5000) (q : Fin 64)
    (hx : ∀ k : Fin 128, x0 (ix2 p k) = X (ix2 (E 0) k)) (hw : ∀ k : Fin 128, x1 (ix2 k q) = Wt (ix2 k (E 1)))
    (hb : x2 (ix2 (0 : Fin 1) q) = B (ix2 (0 : Fin 1) (E 1))) :
    k4_pay1 (F := Ideal) x0 x1 x2 (ix2 p q) = (tanhAll (affine (R := 50000) (K := 128) (C := 64) X Wt B)) E := by
  rw [pay_at]
  show Ideal.tanh ((∑ k : Fin 128, x0 (ix2 p k) * x1 (ix2 k q)) + x2 (ix2 (0 : Fin 1) q))
      = Ideal.tanh ((∑ k : Fin 128, X (ix2 (E 0) k) * Wt (ix2 k (E 1))) + B (ix2 (0 : Fin 1) (E 1)))
  rw [hb]
  exact congrArg Ideal.tanh (congrArg (· + _) (Finset.sum_congr rfl fun k _ => by rw [hx k, hw k]))

/-- The windows' block indices over the grid: the left operand and the output move with the point; the right operand
    and the bias are the same whole block at every point. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Every block of rows is some point's. -/
theorem idx_onto : ∀ q0 : Fin 10, ∃ t : Fin cfg4.N, win4_3.index t = ![q0.val, 0] :=
  (by decide +kernel : ∀ q0 : Fin 10, ∃ t : Fin grid4.N, win4_3.index t = ![q0.val, 0])

/-- What point t writes back is block t of the whole-array function, of the arrays as the region finds them. -/
theorem flushed_eq (c : Dev nD) (t : Fin cfg4.N) :
    (dat4 V c).flushed 3 t = ((cfg4.win 3).blk t).view.read (Elt Ideal)
      (tanhAll (affine (R := 50000) (K := 128) (C := 64) (V c main_v65) (V c main_arg6) (V c main_v66))) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  refine pay_eq (V c main_v65) (V c main_arg6) (V c main_v66) (iblk4 V c 0 t) (iblk4 V c 1 t) (iblk4 V c 2 t)
    (((cfg4.win 3).blk t).view.emb (ix2 p q)) p q (fun k => ?_) (fun k => ?_) ?_
  · show V c main_v65 (((cfg4.win 0).blk t).view.emb (ix2 p k)) = V c main_v65 (ix2 ((((cfg4.win 3).blk t).view.emb (ix2 p q)) 0) k)
    refine congrArg (V c main_v65) (funext fun a => Fin.ext ?_)
    match a with
    | ⟨0, _⟩ => show win4_0.index t (0 : Fin 2) * 5000 + 1 * p.val = win4_3.index t (0 : Fin 2) * 5000 + 1 * p.val; omega
    | ⟨1, _⟩ => show win4_0.index t (1 : Fin 2) * 128 + 1 * k.val = k.val; omega
  · show V c main_arg6 (((cfg4.win 1).blk t).view.emb (ix2 k q)) = V c main_arg6 (ix2 k ((((cfg4.win 3).blk t).view.emb (ix2 p q)) 1))
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 64 + 1 * q.val = win4_3.index t (1 : Fin 2) * 64 + 1 * q.val; omega
  · show V c main_v66 (((cfg4.win 2).blk t).view.emb (ix2 (0 : Fin 1) q)) = V c main_v66 (ix2 (0 : Fin 1) ((((cfg4.win 3).blk t).view.emb (ix2 p q)) 1))
    refine congrArg (V c main_v66) (funext fun a => Fin.ext ?_)
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega

/-- An index of the output array is in point t's block iff each coordinate is in the block's range on its axis. -/
theorem mem_blk (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v67).slice (win4_3.rect t)).set ↔ _
  rw [View.set_slice_whole, Rect.mem_set_unit]
  exact Iff.rfl

/-- The ten blocks tile the rows: row r is in the block of point r / 5000. -/
theorem cover (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- The output array after the region, of the arrays as the region finds them. -/
theorem final (c : Dev nD) :
    (dat4 V c).arrAt 3 cfg4.N = (tanhAll (affine (R := 50000) (K := 128) (C := 64) (V c main_v65) (V c main_arg6) (V c main_v66))) :=
  (dat4 V c).arrAt_eq_of_cover 3 _ (fun t _ => flushed_eq V c t) cover

end Cert.KernelIdeal.Region4

end
-- ==== Proof.Region5.lean ====
/-
  Region 5: the head's linear kernel, on blocks of 5000 rows.

  At grid point t the kernel loads rows 5000·t … 5000·t + 4999 of the 50000 × 64 left operand, the whole 64 × 1 right
  operand and the one-entry bias, and stores, for row p of the block, the sum over k of left[p, k] · right[k, 0] plus
  bias[0, 0].  The ten blocks tile the 50000 rows.
-/
import proofs.«111161_j7438883356948_1_alg».proof.Proof.Gen.KernelIdeal.Frame
import proofs.«111161_j7438883356948_1_alg».proof.Proof.Dense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen Cert.Dense
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The left operand's row coordinate in the block product is the output's row. -/
theorem lhs_row (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
/-- The right operand's column coordinate in the block product is the output's column. -/
theorem rhs_col (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The block matmul into a zero accumulator, read at an entry: the sum over the one contracted axis. -/
theorem matmul_at (l : FVec Ideal S5000x64 .bf16) (r : FVec Ideal S64x1 .bf16) (p : Fin 5000) (q : Fin 1) :
    matmul dot_S5000x64_S64x1_S5000x1_1_0_0_1_n_n none l r (constant S5000x1 .f32 0x00000000#32) (ix2 p q)
      = ∑ k : Fin 64, l (ix2 p k) * r (ix2 k q) := by
  simp only [matmul]
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p q) ((contrEquiv1 dot_S5000x64_S64x1_S5000x1_1_0_0_1_n_n 64 rfl rfl).symm k) = ix2 p k :=
    funext fun a => Fin.ext (by
      match a with
      | ⟨0, _⟩ => exact lhs_row _ _
      | ⟨1, _⟩ => exact (dot_S5000x64_S64x1_S5000x1_1_0_0_1_n_n.lhsIdx_val_of_single rfl _ _).trans hk)
  have er : dot_S5000x64_S64x1_S5000x1_1_0_0_1_n_n.rhsIdx (ix2 p q) ((contrEquiv1 dot_S5000x64_S64x1_S5000x1_1_0_0_1_n_n 64 rfl rfl).symm k) = ix2 k q :=
    funext fun a => Fin.ext (by
      match a with
      | ⟨0, _⟩ => exact (dot_S5000x64_S64x1_S5000x1_1_0_0_1_n_n.rhsIdx_val_of_single rfl _ _).trans hk
      | ⟨1, _⟩ => exact rhs_col _ _)
  rw [el, er]

/-- The body's stored value at row p, column q of the block. -/
theorem pay_at (x0 : Vec Ideal S5000x64 .f32) (x1 : Vec Ideal S64x1 .f32) (x2 : Vec Ideal S1x1 .f32) (p : Fin 5000) (q : Fin 1) :
    k5_pay1 (F := Ideal) x0 x1 x2 (ix2 p q) = (∑ k : Fin 64, x0 (ix2 p k) * x1 (ix2 k q)) + x2 (ix2 (0 : Fin 1) q) := by
  unfold k5_pay1
  show matmul (F := Ideal) dot_S5000x64_S64x1_S5000x1_1_0_0_1_n_n none (truncf (F := Ideal) .bf16 (shapeCast S5000x64 x0 shapeCasts_S5000x64_S5000x64) bitsLt_bf16_f32) (truncf (F := Ideal) .bf16 x1 bitsLt_bf16_f32) (constant (F := Ideal) S5000x1 .f32 0x00000000#32) (ix2 p q)
      + broadcastTo S5000x1 (shapeCast S1x1 x2 shapeCasts_S1x1_S1x1) broadcasts_S1x1_S5000x1 (ix2 p q) = _
  rw [matmul_at, shapeCast_self, broadcastTo_1b_ab_apply, shapeCast_self]
  rfl

/-- The same against whole arrays: if the loaded blocks are the arrays X, Wt, B read at row E 0, column E 1 (the block's
    place in the arrays), the stored value is the whole-array function at E. -/
theorem pay_eq (X : FVec Ideal S50000x64 .f32) (Wt : FVec Ideal S64x1 .f32) (B : FVec Ideal S1x1 .f32)
    (x0 : Vec Ideal S5000x64 .f32) (x1 : Vec Ideal S64x1 .f32) (x2 : Vec Ideal S1x1 .f32) (E : S50000x1.Idx) (p : Fin 5000) (q : Fin 1)
    (hx : ∀ k : Fin 64, x0 (ix2 p k) = X (ix2 (E 0) k)) (hw : ∀ k : Fin 64, x1 (ix2 k q) = Wt (ix2 k (E 1)))
    (hb : x2 (ix2 (0 : Fin 1) q) = B (ix2 (0 : Fin 1) (E 1))) :
    k5_pay1 (F := Ideal) x0 x1 x2 (ix2 p q) = (affine (R := 50000) (K := 64) (C := 1) X Wt B) E := by
  rw [pay_at]
  show (∑ k : Fin 64, x0 (ix2 p k) * x1 (ix2 k q)) + x2 (ix2 (0 : Fin 1) q)
      = (∑ k : Fin 64, X (ix2 (E 0) k) * Wt (ix2 k (E 1))) + B (ix2 (0 : Fin 1) (E 1))
  rw [hb]
  exact congrArg (· + _) (Finset.sum_congr rfl fun k _ => by rw [hx k, hw k])

/-- The windows' block indices over the grid: the left operand and the output move with the point; the right operand
    and the bias are the same whole block at every point. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Every block of rows is some point's. -/
theorem idx_onto : ∀ q0 : Fin 10, ∃ t : Fin cfg5.N, win5_3.index t = ![q0.val, 0] :=
  (by decide +kernel : ∀ q0 : Fin 10, ∃ t : Fin grid5.N, win5_3.index t = ![q0.val, 0])

/-- What point t writes back is block t of the whole-array function, of the arrays as the region finds them. -/
theorem flushed_eq (c : Dev nD) (t : Fin cfg5.N) :
    (dat5 V c).flushed 3 t = ((cfg5.win 3).blk t).view.read (Elt Ideal)
      (affine (R := 50000) (K := 64) (C := 1) (V c main_v67) (V c main_arg8) (V c main_v68)) := by
  show (cfg5.win 3).cut (grid5.coords t) ((dat5 V c).after 3 t) = _
  rw [after5_3]
  unfold out5_3
  rw [View.canon_unit_zero hz]
  simp only [View.ld_unit_zero (S := S5000x64) hz, View.ld_unit_zero (S := S64x1) hz, View.ld_unit_zero (S := S1x1) hz]
  obtain ⟨e0, e1, e2, e3, e4, e5, e6, e7⟩ := idx_facts t
  funext j
  obtain ⟨p, q, rfl⟩ : ∃ (p : Fin 5000) (q : Fin 1), j = ix2 p q := ⟨j 0, j 1, eq_ix2 j⟩
  refine pay_eq (V c main_v67) (V c main_arg8) (V c main_v68) (iblk5 V c 0 t) (iblk5 V c 1 t) (iblk5 V c 2 t)
    (((cfg5.win 3).blk t).view.emb (ix2 p q)) p q (fun k => ?_) (fun k => ?_) ?_
  · show V c main_v67 (((cfg5.win 0).blk t).view.emb (ix2 p k)) = V c main_v67 (ix2 ((((cfg5.win 3).blk t).view.emb (ix2 p q)) 0) k)
    refine congrArg (V c main_v67) (funext fun a => Fin.ext ?_)
    match a with
    | ⟨0, _⟩ => show win5_0.index t (0 : Fin 2) * 5000 + 1 * p.val = win5_3.index t (0 : Fin 2) * 5000 + 1 * p.val; omega
    | ⟨1, _⟩ => show win5_0.index t (1 : Fin 2) * 64 + 1 * k.val = k.val; omega
  · show V c main_arg8 (((cfg5.win 1).blk t).view.emb (ix2 k q)) = V c main_arg8 (ix2 k ((((cfg5.win 3).blk t).view.emb (ix2 p q)) 1))
    refine congrArg (V c main_arg8) (funext fun a => Fin.ext ?_)
    match a with
    | ⟨0, _⟩ => show win5_1.index t (0 : Fin 2) * 64 + 1 * k.val = k.val; omega
    | ⟨1, _⟩ => show win5_1.index t (1 : Fin 2) * 1 + 1 * q.val = win5_3.index t (1 : Fin 2) * 1 + 1 * q.val; omega
  · show V c main_v68 (((cfg5.win 2).blk t).view.emb (ix2 (0 : Fin 1) q)) = V c main_v68 (ix2 (0 : Fin 1) ((((cfg5.win 3).blk t).view.emb (ix2 p q)) 1))
    refine congrArg (V c main_v68) (funext fun a => Fin.ext ?_)
    match a with
    | ⟨0, _⟩ => show win5_2.index t (0 : Fin 2) * 1 + 1 * 0 = 0; omega
    | ⟨1, _⟩ => show win5_2.index t (1 : Fin 2) * 1 + 1 * q.val = win5_3.index t (1 : Fin 2) * 1 + 1 * q.val; omega

/-- An index of the output array is in point t's block iff each coordinate is in the block's range on its axis. -/
theorem mem_blk (t : Fin cfg5.N) (i : S50000x1.Idx) :
    i ∈ ((cfg5.win 3).blk t).view.set ↔ ∀ a : Fin 2, win5_3.index t a * S5000x1.size a ≤ (i a).val ∧ (i a).val < win5_3.index t a * S5000x1.size a + S5000x1.size a := by
  show i ∈ ((View.whole main_v69).slice (win5_3.rect t)).set ↔ _
  rw [View.set_slice_whole, Rect.mem_set_unit]
  exact Iff.rfl

/-- The ten blocks tile the rows: row r is in the block of point r / 5000. -/
theorem cover (i : S50000x1.Idx) : ∃ t : Fin cfg5.N, (cfg5.win 3).flush t = true ∧ i ∈ ((cfg5.win 3).blk t).view.set := by
  have hi0 : (i 0).val < 50000 := (i 0).isLt
  have hi1 : (i 1).val < 1 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 1 ≤ (i 1).val ∧ (i 1).val < win5_3.index t (1 : Fin 2) * 1 + 1; omega

/-- The output array after the region, of the arrays as the region finds them. -/
theorem final (c : Dev nD) :
    (dat5 V c).arrAt 3 cfg5.N = (affine (R := 50000) (K := 64) (C := 1) (V c main_v67) (V c main_arg8) (V c main_v68)) :=
  (dat5 V c).arrAt_eq_of_cover 3 _ (fun t _ => flushed_eq V c t) cover

end Cert.KernelIdeal.Region5

end
-- ==== Proof.FoldValue.lean ====
/-
  The idealized kernel's result as a function of its arguments.

  Walking the fold of buffer contents from the last region back: each region's output array is the dense function of
  its operands (the region modules), each operand is either an argument as launched, a bias vector reshaped to one row,
  a row of zeros, the previous region's output, or the message passing `agg` of the previous region's output.  With a
  zero bias row a linear kernel computes the bare product (a + 0 = a), and a bias held as one row is the bias vector
  added to every row.  Composed, the result buffer holds the reference's network of the arguments.
-/
import proofs.«111161_j7438883356948_1_alg».proof.Proof.Gen.KernelIdeal.Frame
import proofs.«111161_j7438883356948_1_alg».proof.Proof.FoldKeep
import proofs.«111161_j7438883356948_1_alg».proof.Proof.FoldGlue
import proofs.«111161_j7438883356948_1_alg».proof.Proof.RefStages
import proofs.«111161_j7438883356948_1_alg».proof.Proof.Dense
import proofs.«111161_j7438883356948_1_alg».proof.Proof.Region0
import proofs.«111161_j7438883356948_1_alg».proof.Proof.Region1
import proofs.«111161_j7438883356948_1_alg».proof.Proof.Region2
import proofs.«111161_j7438883356948_1_alg».proof.Proof.Region3
import proofs.«111161_j7438883356948_1_alg».proof.Proof.Region4
import proofs.«111161_j7438883356948_1_alg».proof.Proof.Region5
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Fold

open Cert.KernelIdeal Cert.KernelIdeal.Gen Cert.RefStages Cert.Dense
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The arguments as launched -/

abbrev a0 : FVec Ideal S50000x128 .f32 := m ((c : Thread nD τ).loc main_arg0)
abbrev a2 : FVec Ideal S128x128 .f32 := m ((c : Thread nD τ).loc main_arg2)
abbrev a3 : FVec Ideal S128 .f32 := m ((c : Thread nD τ).loc main_arg3)
abbrev a4 : FVec Ideal S128x128 .f32 := m ((c : Thread nD τ).loc main_arg4)
abbrev a5 : FVec Ideal S128 .f32 := m ((c : Thread nD τ).loc main_arg5)
abbrev a6 : FVec Ideal S128x64 .f32 := m ((c : Thread nD τ).loc main_arg6)
abbrev a7 : FVec Ideal S64 .f32 := m ((c : Thread nD τ).loc main_arg7)
abbrev a8 : FVec Ideal S64x1 .f32 := m ((c : Thread nD τ).loc main_arg8)
abbrev a9 : FVec Ideal S1 .f32 := m ((c : Thread nD τ).loc main_arg9)

/-! ## The bias operands: rows of zeros, and bias vectors held as one row -/

/-- A vector reshaped to one row is that vector on the row's columns. -/
theorem reshape_row {C : Nat} (b : FVec Ideal ⟨1, ![C]⟩ .f32) (h : (⟨1, ![C]⟩ : Shape).ShapeCasts ⟨2, ![1, C]⟩) :
    shapeCast ⟨2, ![1, C]⟩ b h = asRow b := by
  funext i
  obtain ⟨u, j, rfl⟩ : ∃ (u : Fin 1) (j : Fin C), i = ix2 u j := ⟨i 0, i 1, eq_ix2 i⟩
  exact shapeCast_a_1a_apply b h u j

/-- The first linear kernel's bias operand is a row of zeros. -/
theorem zero31 (i : S1x128.Idx) : (V3 m ρ c main_v31 : FVec Ideal S1x128 .f32) i = (0 : EReal) := by
  have e : (V3 m ρ c main_v31 : FVec Ideal S1x128 .f32)
      = shapeCast S1x128 (broadcastInDim S128 ![] bcast_S_S128 (constant (F := Ideal) S_ .f32 0x00000000#32)) shapeCasts_S128_S1x128 := by
    show StableHlo.after hostOps0_2 (W2 m ρ c) (Proc.devRef .tc main_v31) = _
    after_results
    rfl
  rw [e]
  show Ideal.ofBits .f32 0x00000000#32 = 0
  exact Ideal.ofBits_zero_f32

/-- The second linear kernel's bias operand is a row of zeros. -/
theorem zero49 (i : S1x128.Idx) : (V7 m ρ c main_v49 : FVec Ideal S1x128 .f32) i = (0 : EReal) := by
  have e : (V7 m ρ c main_v49 : FVec Ideal S1x128 .f32)
      = shapeCast S1x128 (broadcastInDim S128 ![] bcast_S_S128 (constant (F := Ideal) S_ .f32 0x00000000#32)) shapeCasts_S128_S1x128 := by
    show StableHlo.after hostOps2 (W6 m ρ c) (Proc.devRef .tc main_v49) = _
    after_results
    rfl
  rw [e]
  show Ideal.ofBits .f32 0x00000000#32 = 0
  exact Ideal.ofBits_zero_f32

/-- The first bias kernel's bias operand is the first bias vector held as one row. -/
theorem row46 : (V5 m ρ c main_v46 : FVec Ideal S1x128 .f32) = asRow (a3 m c) := by
  refine Eq.trans ?_ (reshape_row (a3 m c) shapeCasts_S128_S1x128)
  show StableHlo.after hostOps1 (W4 m ρ c) (Proc.devRef .tc main_v46) = _
  after_results
  rw [down4 m ρ c main_arg3 (by decide), launch3 m ρ c main_arg3 (by decide) (by decide) (by decide)]
  rfl

/-- The second bias kernel's bias operand is the second bias vector held as one row. -/
theorem row64 : (V9 m ρ c main_v64 : FVec Ideal S1x128 .f32) = asRow (a5 m c) := by
  refine Eq.trans ?_ (reshape_row (a5 m c) shapeCasts_S128_S1x128)
  show StableHlo.after hostOps3 (W8 m ρ c) (Proc.devRef .tc main_v64) = _
  after_results
  rw [down8 m ρ c main_arg5 (by decide), launch3 m ρ c main_arg5 (by decide) (by decide) (by decide)]
  rfl

/-- The hidden layer's bias operand is its bias vector held as one row. -/
theorem row66 : (V11 m ρ c main_v66 : FVec Ideal S1x64 .f32) = asRow (a7 m c) := by
  refine Eq.trans ?_ (reshape_row (a7 m c) shapeCasts_S64_S1x64)
  show StableHlo.after hostOps4 (W10 m ρ c) (Proc.devRef .tc main_v66) = _
  after_results
  rw [down10 m ρ c main_arg7 (by decide), launch3 m ρ c main_arg7 (by decide) (by decide) (by decide)]
  rfl

/-- The head's bias operand is its one-entry bias held as one row. -/
theorem row68 : (V13 m ρ c main_v68 : FVec Ideal S1x1 .f32) = asRow (a9 m c) := by
  refine Eq.trans ?_ (reshape_row (a9 m c) shapeCasts_S1_S1x1)
  show StableHlo.after hostOps5 (W12 m ρ c) (Proc.devRef .tc main_v68) = _
  after_results
  rw [down12 m ρ c main_arg9 (by decide), launch3 m ρ c main_arg9 (by decide) (by decide) (by decide)]
  rfl

/-! ## The regions' outputs, first to last -/

/-- Region 0 leaves the first product. -/
theorem out0 : W4 m ρ c (Proc.devRef .tc main_v32) = mm (R := 50000) (K := 128) (C := 128) (a0 m c) (a2 m c) := by
  refine (W4_arr m ρ c 3).trans ((Region0.final (V3 m ρ) c).trans ?_)
  rw [show V3 m ρ c main_arg0 = a0 m c from launch3 m ρ c main_arg0 (by decide) (by decide) (by decide),
    show V3 m ρ c main_arg2 = a2 m c from launch3 m ρ c main_arg2 (by decide) (by decide) (by decide)]
  exact affine_zero _ _ _ (zero31 m ρ c)

/-- Region 1 leaves the first round of graph convolution. -/
theorem out1 : W6 m ρ c (Proc.devRef .tc main_v47) = layer (a0 m c) (edges m c) (a2 m c) (a3 m c) := by
  refine (W6_arr m ρ c 2).trans ((Region1.final (V5 m ρ) c).trans ?_)
  rw [show V5 m ρ c main_v45 = agg (F := Ideal) (W4 m ρ c (Proc.devRef .tc main_v32)) (edges m c) from agg5 m ρ c,
    out0 m ρ c, row46 m ρ c, biasTanh_asRow]
  rfl

/-- Region 2 leaves the second round's product. -/
theorem out2 : W8 m ρ c (Proc.devRef .tc main_v50)
    = mm (R := 50000) (K := 128) (C := 128) (layer (a0 m c) (edges m c) (a2 m c) (a3 m c)) (a4 m c) := by
  refine (W8_arr m ρ c 3).trans ((Region2.final (V7 m ρ) c).trans ?_)
  rw [show V7 m ρ c main_v47 = layer (a0 m c) (edges m c) (a2 m c) (a3 m c) from (host7 m ρ c main_v47 (by decide)).trans (out1 m ρ c),
    show V7 m ρ c main_arg4 = a4 m c from (down7 m ρ c main_arg4 (by decide)).trans (launch3 m ρ c main_arg4 (by decide) (by decide) (by decide))]
  exact affine_zero _ _ _ (zero49 m ρ c)

/-- Region 3 leaves the second round of graph convolution. -/
theorem out3 : W10 m ρ c (Proc.devRef .tc main_v65)
    = layer (layer (a0 m c) (edges m c) (a2 m c) (a3 m c)) (edges m c) (a4 m c) (a5 m c) := by
  refine (W10_arr m ρ c 2).trans ((Region3.final (V9 m ρ) c).trans ?_)
  rw [show V9 m ρ c main_v63 = agg (F := Ideal) (W8 m ρ c (Proc.devRef .tc main_v50)) (edges m c) from agg9 m ρ c,
    out2 m ρ c, row64 m ρ c, biasTanh_asRow]
  rfl

/-- Region 4 leaves the hidden layer. -/
theorem out4 : W12 m ρ c (Proc.devRef .tc main_v67)
    = tanhAll (addRow (R := 50000) (C := 64) (mm (R := 50000) (K := 128) (C := 64)
        (layer (layer (a0 m c) (edges m c) (a2 m c) (a3 m c)) (edges m c) (a4 m c) (a5 m c)) (a6 m c)) (a7 m c)) := by
  refine (W12_arr m ρ c 3).trans ((Region4.final (V11 m ρ) c).trans ?_)
  rw [show V11 m ρ c main_v65 = layer (layer (a0 m c) (edges m c) (a2 m c) (a3 m c)) (edges m c) (a4 m c) (a5 m c)
      from (host11 m ρ c main_v65 (by decide)).trans (out3 m ρ c),
    show V11 m ρ c main_arg6 = a6 m c from (down11 m ρ c main_arg6 (by decide)).trans (launch3 m ρ c main_arg6 (by decide) (by decide) (by decide)),
    row66 m ρ c, affine_asRow]

/-- Region 5 leaves the network of the arguments in the result buffer. -/
theorem value : W14 m ρ c (Proc.devRef .tc main_v69)
    = net (a0 m c) (edges m c) (a2 m c) (a3 m c) (a4 m c) (a5 m c) (a6 m c) (a7 m c) (a8 m c) (a9 m c) := by
  refine (W14_arr m ρ c 3).trans ((Region5.final (V13 m ρ) c).trans ?_)
  rw [show V13 m ρ c main_v67 = tanhAll (addRow (R := 50000) (C := 64) (mm (R := 50000) (K := 128) (C := 64)
        (layer (layer (a0 m c) (edges m c) (a2 m c) (a3 m c)) (edges m c) (a4 m c) (a5 m c)) (a6 m c)) (a7 m c))
      from (host13 m ρ c main_v67 (by decide)).trans (out4 m ρ c),
    show V13 m ρ c main_arg8 = a8 m c from (down13 m ρ c main_arg8 (by decide)).trans (launch3 m ρ c main_arg8 (by decide) (by decide) (by decide)),
    row68 m ρ c, affine_asRow]
  rfl

end Cert.KernelIdeal.Fold

end
-- ==== Proof.lean ====
/-
  The proof of `Cert.Claim`: the three frames, `preserves` and `algebraic` for a two-round graph convolution network
  whose dense layers are Pallas kernels tiled over 5000-row blocks and whose gather / scatter-add steps are host
  operations shared with the reference.

  The frames of the two kernel programs are the generated ones; the reference's frame is its run with the result
  dropped.  The ideal pass rewrote nothing, so `preserves` is `True`.  For `algebraic`, the idealized kernel's result
  buffer ends holding the network `RefStages.net` of the launch arguments (Proof/FoldValue.lean, over the run of
  Proof/KernelRun.lean), and so does the reference's (Proof/RefStages.lean): products are sums over the contracted
  axis on both sides, a zero bias is absorbed by a + 0 = a, the casts to bf16 are the identity on the extended reals,
  tanh is one function in a kernel and on the host, and the message passing between the dense layers is one shared
  function of the features and the edge list.  No law used needs finiteness, so the precondition is never opened.
-/
import proofs.«111161_j7438883356948_1_alg».proof.Defs
import proofs.«111161_j7438883356948_1_alg».proof.Proof.Gen.Kernel
import proofs.«111161_j7438883356948_1_alg».proof.Proof.Gen.Kernel.Frame
import proofs.«111161_j7438883356948_1_alg».proof.Proof.Gen.KernelIdeal
import proofs.«111161_j7438883356948_1_alg».proof.Proof.Gen.KernelIdeal.Frame
import proofs.«111161_j7438883356948_1_alg».proof.Proof.Gen.ReferenceIdeal
import proofs.«111161_j7438883356948_1_alg».proof.Proof.Gen.Pre_finite_inputs
import proofs.«111161_j7438883356948_1_alg».proof.Proof.KernelRun
import proofs.«111161_j7438883356948_1_alg».proof.Proof.FoldValue
import proofs.«111161_j7438883356948_1_alg».proof.Proof.RefRun
import proofs.«111161_j7438883356948_1_alg».proof.Proof.RefRead
import proofs.«111161_j7438883356948_1_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network of the (agreeing) arguments in their result buffers. -/
theorem algebraic : Cert.algebraic_KernelIdeal_ReferenceIdeal := by
  intro m ρ m' ρ' _ hagree
  refine ⟨fun c => Cert.RefStages.net (Cert.KernelIdeal.Fold.a0 m c) (Cert.KernelIdeal.Fold.edges m c) (Cert.KernelIdeal.Fold.a2 m c)
      (Cert.KernelIdeal.Fold.a3 m c) (Cert.KernelIdeal.Fold.a4 m c) (Cert.KernelIdeal.Fold.a5 m c) (Cert.KernelIdeal.Fold.a6 m c)
      (Cert.KernelIdeal.Fold.a7 m c) (Cert.KernelIdeal.Fold.a8 m c) (Cert.KernelIdeal.Fold.a9 m c), ?_, ?_⟩
  · exact (θ_run Cert.KernelIdeal.defs _ _).mono
      (fun r h c => ⟨(h c).1.trans (Cert.KernelIdeal.Fold.value m ρ c), (h c).2⟩) (Cert.KernelIdeal.Whole.run m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7, e8, e9⟩ := hagree c
    rw [(h c).1, Cert.ReferenceIdeal.ReadP.val_main_v100_eq, Cert.RefStages.ref_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
